-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x4096x9x9 : Shape := ⟨5, ![4, 8, 4096, 9, 9]⟩
abbrev S4x8x4096x9x32 : Shape := ⟨5, ![4, 8, 4096, 9, 32]⟩
abbrev S_ : Shape := ⟨0, ![]⟩

class Facts : Prop where
  bcast_S_S4x8x4096x9x9 : S_.BroadcastsInDim S4x8x4096x9x9 (![] : Fin 0 → Fin S4x8x4096x9x9.rank)
  reducesTo_S4x8x4096x9x9_S_d0_1_2_3_4 : S4x8x4096x9x9.ReducesTo [0, 1, 2, 3, 4] S_
  h_S_ : 0 < S_.numel
  bcast_S_S4x8x4096x9x32 : S_.BroadcastsInDim S4x8x4096x9x32 (![] : Fin 0 → Fin S4x8x4096x9x32.rank)
  reducesTo_S4x8x4096x9x32_S_d0_1_2_3_4 : S4x8x4096x9x32.ReducesTo [0, 1, 2, 3, 4] S_

variable [Facts]

def fn {F : FTy → Type} [FloatOps F] (main_arg0 : FVec F S4x8x4096x9x9 .f32) (main_arg1 : FVec F S4x8x4096x9x32 .f32) : IVec S_ 1 :=
  let main_v0 : FVec F S4x8x4096x9x9 .f32 := Host.absf main_arg0
  let main_cst : FVec F S_ .f32 := constant S_ .f32 0x7F800000#32
  let main_v1 : FVec F S4x8x4096x9x9 .f32 := broadcastInDim S4x8x4096x9x9 ![] bcast_S_S4x8x4096x9x9 main_cst
  let main_v2 : IVec S4x8x4096x9x9 1 := cmpf .olt main_v0 main_v1
  let main_c : IVec S_ 1 := constantI S_ 1 1#1
  let main_v3 : IVec S_ 1 := (fun x v => Host.reduce IntOp.andi x v reducesTo_S4x8x4096x9x9_S_d0_1_2_3_4 h_S_) main_v2 main_c
  let main_v4 : FVec F S4x8x4096x9x32 .f32 := Host.absf main_arg1
  let main_cst_0 : FVec F S_ .f32 := constant S_ .f32 0x7F800000#32
  let main_v5 : FVec F S4x8x4096x9x32 .f32 := broadcastInDim S4x8x4096x9x32 ![] bcast_S_S4x8x4096x9x32 main_cst_0
  let main_v6 : IVec S4x8x4096x9x32 1 := cmpf .olt main_v4 main_v5
  let main_c_1 : IVec S_ 1 := constantI S_ 1 1#1
  let main_v7 : IVec S_ 1 := (fun x v => Host.reduce IntOp.andi x v reducesTo_S4x8x4096x9x32_S_d0_1_2_3_4 h_S_) main_v6 main_c_1
  let main_v8 : IVec S_ 1 := andi main_v3 main_v7
  main_v8
-- ==== Kernel.lean ====
abbrev S4x8x4096x9x9 : Shape := ⟨5, ![4, 8, 4096, 9, 9]⟩
abbrev S4x8x4096x9x32 : Shape := ⟨5, ![4, 8, 4096, 9, 32]⟩
abbrev S4x8x4096x81 : Shape := ⟨4, ![4, 8, 4096, 81]⟩
abbrev S4x8x4096x288 : Shape := ⟨4, ![4, 8, 4096, 288]⟩
abbrev S4x2304x4096 : Shape := ⟨3, ![4, 2304, 4096]⟩
abbrev S1x1x512x81 : Shape := ⟨4, ![1, 1, 512, 81]⟩
abbrev S1x1x512x288 : Shape := ⟨4, ![1, 1, 512, 288]⟩
abbrev S1x288x512 : Shape := ⟨3, ![1, 288, 512]⟩
abbrev S512x81 : Shape := ⟨2, ![512, 81]⟩
abbrev S512x9x9 : Shape := ⟨3, ![512, 9, 9]⟩
abbrev S512x9 : Shape := ⟨2, ![512, 9]⟩
abbrev S512x9x1 : Shape := ⟨3, ![512, 9, 1]⟩
abbrev S512x288 : Shape := ⟨2, ![512, 288]⟩
abbrev S512x9x32 : Shape := ⟨3, ![512, 9, 32]⟩
abbrev S32x9x512 : Shape := ⟨3, ![32, 9, 512]⟩
abbrev S288x512 : Shape := ⟨2, ![288, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x8x4096x9x9, .f32⟩
  | .hbm, ⟨1, _⟩ => ⟨S4x8x4096x9x32, .f32⟩
  | .hbm, ⟨2, _⟩ => ⟨S4x8x4096x81, .f32⟩
  | .hbm, ⟨3, _⟩ => ⟨S4x8x4096x288, .f32⟩
  | .hbm, ⟨4, _⟩ => ⟨S4x2304x4096, .f32⟩
  | .local _ .vmem, ⟨0, _⟩ => ⟨S1x1x512x81, .f32⟩
  | .local _ .vmem, ⟨1, _⟩ => ⟨S1x1x512x81, .f32⟩
  | .local _ .vmem, ⟨2, _⟩ => ⟨S1x1x512x288, .f32⟩
  | .local _ .vmem, ⟨3, _⟩ => ⟨S1x1x512x288, .f32⟩
  | .local _ .vmem, ⟨4, _⟩ => ⟨S1x288x512, .f32⟩
  | .local _ .vmem, ⟨5, _⟩ => ⟨S1x288x512, .f32⟩
  | _, _ => ⟨S4x8x4096x9x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x512x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x288x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S4x8x4096x9x9_S4x8x4096x81 : S4x8x4096x9x9.ShapeCasts S4x8x4096x81
  shapeCasts_S4x8x4096x9x32_S4x8x4096x288 : S4x8x4096x9x32.ShapeCasts S4x8x4096x288
  inb_S1x1x512x81_S1x1x512x81_0_0_0_0 : ∀ a, (![0, 0, 0, 0] : Fin 4 → Nat) a + S1x1x512x81.size a ≤ S1x1x512x81.size a
  h_S1x1x512x81 : 0 < S1x1x512x81.numel
  shapeCasts_S1x1x512x81_S512x81 : S1x1x512x81.ShapeCasts S512x81
  shapeCasts_S512x81_S512x9x9 : S512x81.ShapeCasts S512x9x9
  reduces_S512x9x9_S512x9 : S512x9x9.Reduces [2] S512x9
  shapeCasts_S512x9_S512x9x1 : S512x9.ShapeCasts S512x9x1
  broadcasts_S512x9x1_S512x9x9 : S512x9x1.Broadcasts S512x9x9
  inb_S1x1x512x288_S1x1x512x288_0_0_0_0 : ∀ a, (![0, 0, 0, 0] : Fin 4 → Nat) a + S1x1x512x288.size a ≤ S1x1x512x288.size a
  h_S1x1x512x288 : 0 < S1x1x512x288.numel
  shapeCasts_S1x1x512x288_S512x288 : S1x1x512x288.ShapeCasts S512x288
  shapeCasts_S512x288_S512x9x32 : S512x288.ShapeCasts S512x9x32
  bitsLt_bf16_f32 : FTy.bits .bf16 < FTy.bits .f32
  transposes_S512x9x32_p2_1_0_S32x9x512 : S512x9x32.Transposes [2, 1, 0] S32x9x512
  shapeCasts_S32x9x512_S288x512 : S32x9x512.ShapeCasts S288x512
  inb_S1x288x512_S1x288x512_0_0_0 : ∀ a, (![0, 0, 0] : Fin 3 → Nat) a + S1x288x512.size a ≤ S1x288x512.size a
  h_S1x288x512 : 0 < S1x288x512.numel
  shapeCasts_S1x288x512_S288x512 : S1x288x512.ShapeCasts S288x512
  shapeCasts_S288x512_S1x288x512 : S288x512.ShapeCasts S1x288x512
  dot_S512x9x9_S512x9x32_S512x9x32_2_1_1_2_0_0_wf : DotDims.WF S512x9x9 S512x9x32 S512x9x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x81.size a ≤ S4x8x4096x81.size a
  hwx0_0 : ∀ i : grid0.Coords, EltTy.bits .f32 = 32 ∨ (Rect.block (s := S4x8x4096x81) S1x1x512x81.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x288.size a ≤ S4x8x4096x288.size a
  hwx0_1 : ∀ i : grid0.Coords, EltTy.bits .f32 = 32 ∨ (Rect.block (s := S4x8x4096x288) S1x1x512x288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x288x512.size a ≤ S4x2304x4096.size a
  hwx0_2 : ∀ i : grid0.Coords, EltTy.bits .f32 = 32 ∨ (Rect.block (s := S4x2304x4096) S1x288x512.size (cc0_transform_2 i) (hinb0_2 i)).WholeWords (EltTy.packing .f32)

variable [Facts₀]

def dot_S512x9x9_S512x9x32_S512x9x32_2_1_1_2_0_0 : DotDims S512x9x9 S512x9x32 S512x9x32 where
  lhsContracting := [2]
  rhsContracting := [1]
  lhsNonContracting := [1]
  rhsNonContracting := [2]
  lhsBatch := [0]
  rhsBatch := [0]
  wf := dot_S512x9x9_S512x9x32_S512x9x32_2_1_1_2_0_0_wf

abbrev win0_0 : Pipeline.Window sig grid0 :=
  Pipeline.Window.ofSpec (Memref.whole main_v0) S1x1x512x81.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512x288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x288x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8x4096x9x9 : Shape := ⟨5, ![4, 8, 4096, 9, 9]⟩
abbrev S4x8x4096x9x32 : Shape := ⟨5, ![4, 8, 4096, 9, 32]⟩
abbrev S_ : Shape := ⟨0, ![]⟩
abbrev S4x8x4096x9 : Shape := ⟨4, ![4, 8, 4096, 9]⟩
abbrev S4x8x4096x9x1 : Shape := ⟨5, ![4, 8, 4096, 9, 1]⟩
abbrev S4x8x32x9x4096 : Shape := ⟨5, ![4, 8, 32, 9, 4096]⟩
abbrev S4x2304x4096 : Shape := ⟨3, ![4, 2304, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x8x4096x9x9, .f32⟩
  | .hbm, ⟨1, _⟩ => ⟨S4x8x4096x9x32, .f32⟩
  | .hbm, ⟨2, _⟩ => ⟨S_, .f32⟩
  | .hbm, ⟨3, _⟩ => ⟨S4x8x4096x9x9, .f32⟩
  | .hbm, ⟨4, _⟩ => ⟨S4x8x4096x9x9, .f32⟩
  | .hbm, ⟨5, _⟩ => ⟨S_, .f32⟩
  | .hbm, ⟨6, _⟩ => ⟨S4x8x4096x9, .f32⟩
  | .hbm, ⟨7, _⟩ => ⟨S4x8x4096x9x1, .f32⟩
  | .hbm, ⟨8, _⟩ => ⟨S4x8x4096x9x9, .f32⟩
  | .hbm, ⟨9, _⟩ => ⟨S4x8x4096x9x9, .f32⟩
  | .hbm, ⟨10, _⟩ => ⟨S4x8x4096x9x9, .f32⟩
  | .hbm, ⟨11, _⟩ => ⟨S_, .f32⟩
  | .hbm, ⟨12, _⟩ => ⟨S4x8x4096x9, .f32⟩
  | .hbm, ⟨13, _⟩ => ⟨S4x8x4096x9x1, .f32⟩
  | .hbm, ⟨14, _⟩ => ⟨S_, .f32⟩
  | .hbm, ⟨15, _⟩ => ⟨S4x8x4096x9x1, .f32⟩
  | .hbm, ⟨16, _⟩ => ⟨S4x8x4096x9x1, .f32⟩
  | .hbm, ⟨17, _⟩ => ⟨S4x8x4096x9x9, .f32⟩
  | .hbm, ⟨18, _⟩ => ⟨S4x8x4096x9x9, .f32⟩
  | .hbm, ⟨19, _⟩ => ⟨S4x8x4096x9x32, .f32⟩
  | .hbm, ⟨20, _⟩ => ⟨S4x8x32x9x4096, .f32⟩
  | .hbm, ⟨21, _⟩ => ⟨S4x2304x4096, .f32⟩
  | _, _ => ⟨S4x8x4096x9x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S4x8x4096x9x9 : S_.BroadcastsInDim S4x8x4096x9x9 (![] : Fin 0 → Fin S4x8x4096x9x9.rank)
  reducesTo_S4x8x4096x9x9_S4x8x4096x9_d4 : S4x8x4096x9x9.ReducesTo [4] S4x8x4096x9
  h_S_ : 0 < S_.numel
  bcast_S4x8x4096x9_S4x8x4096x9x1_0_1_2_3 : S4x8x4096x9.BroadcastsInDim S4x8x4096x9x1 (![0, 1, 2, 3] : Fin 4 → Fin S4x8x4096x9x1.rank)
  bcast_S4x8x4096x9x1_S4x8x4096x9x9_0_1_2_3_4 : S4x8x4096x9x1.BroadcastsInDim S4x8x4096x9x9 (![0, 1, 2, 3, 4] : Fin 5 → Fin S4x8x4096x9x9.rank)
  bcast_S_S4x8x4096x9x1 : S_.BroadcastsInDim S4x8x4096x9x1 (![] : Fin 0 → Fin S4x8x4096x9x1.rank)
  transposes_S4x8x4096x9x32_S4x8x32x9x4096_0_1_4_3_2 : S4x8x4096x9x32.Transposes [0, 1, 4, 3, 2] S4x8x32x9x4096
  shapeCasts_S4x8x32x9x4096_S4x2304x4096 : S4x8x32x9x4096.ShapeCasts S4x2304x4096
  dot_S4x8x4096x9x9_S4x8x4096x9x32_S4x8x4096x9x32_4_3_3_4_012_012_wf : DotDims.WF S4x8x4096x9x9 S4x8x4096x9x32 S4x8x4096x9x32 [4] [3] [3] [4] [0, 1, 2] [0, 1, 2]

variable [Facts₀]

def dot_S4x8x4096x9x9_S4x8x4096x9x32_S4x8x4096x9x32_4_3_3_4_012_012 : DotDims S4x8x4096x9x9 S4x8x4096x9x32 S4x8x4096x9x32 where
  lhsContracting := [4]
  rhsContracting := [3]
  lhsNonContracting := [3]
  rhsNonContracting := [4]
  lhsBatch := [0, 1, 2]
  rhsBatch := [0, 1, 2]
  wf := dot_S4x8x4096x9x9_S4x8x4096x9x32_S4x8x4096x9x32_4_3_3_4_012_012_wf

class Facts : Prop extends Facts₀ where

variable [Facts]
-- ==== Proof.WindowAttn.lean ====
/-
  Windowed attention over a 9 x 9 neighbourhood, as one function of the two argument arrays.

  For one query position the nine logits of a row are multiplied by a fixed scale, shifted by their
  maximum (taken from minus infinity), exponentiated, and divided by the sum of the nine exponentials
  plus a fixed small constant; the nine weights so obtained mix the nine value rows. The output array
  holds, at batch b, row (h * 32 + d) * 9 + i and pixel w, the mix for head h, query i and channel d.
  Everything is over the extended reals; the three constants are kept as the binary words both programs
  spell, so nothing here depends on their numerical values.
-/
import Idealize.ShloMosaic.PureOps.Ideal
import Idealize.ShloMosaic.Lib.ValueIdx

noncomputable section

open scoped BigOperators

namespace Cert.WindowAttn

open Idealize.ShloMosaic Idealize.ShloMosaic.ValueIdx

/-- A row of nine logits times the scale. -/
def scaled (l : Fin 9 → EReal) (k : Fin 9) : EReal := l k * (Ideal.ofBits .f32 0x3E3504F3#32 : EReal)

/-- The maximum of nine numbers, folded from minus infinity. -/
def rowMax (x : Fin 9 → EReal) : EReal :=
  (Finset.univ : Finset (Fin 9)).fold max (Ideal.ofBits .f32 0xFF800000#32 : EReal) x

/-- The exponential of a scaled logit less the row's maximum. -/
def shiftedExp (l : Fin 9 → EReal) (k : Fin 9) : EReal := Ideal.exp (scaled l k - rowMax (scaled l))

/-- The softmax weight of entry `j` of the row: its exponential over the row's sum of exponentials plus the constant. -/
def weight (l : Fin 9 → EReal) (j : Fin 9) : EReal :=
  Ideal.div (shiftedExp l j) ((∑ k : Fin 9, shiftedExp l k) + (Ideal.ofBits .f32 0x2B8CBCCC#32 : EReal))

/-- The nine weights of the row `l` applied to nine values. -/
def mix (l v : Fin 9 → EReal) : EReal := ∑ j : Fin 9, weight l j * v j

/-- The logits array: batch, head, pixel, query, key. -/
abbrev LogitsShape : Shape := ⟨5, ![4, 8, 4096, 9, 9]⟩
/-- The values array: batch, head, pixel, key, channel. -/
abbrev ValuesShape : Shape := ⟨5, ![4, 8, 4096, 9, 32]⟩
/-- The output array: batch, (head, channel, query) merged, pixel. -/
abbrev OutShape : Shape := ⟨3, ![4, 2304, 4096]⟩

/-- The coordinates an output index stands for: row r = (h * 32 + d) * 9 + i. -/
def batchOf (o : OutShape.Idx) : Fin 4 := ⟨(o 0).val, (o 0).isLt⟩
def headOf (o : OutShape.Idx) : Fin 8 := ⟨(o 1).val / 288, by have h : (o 1).val < 2304 := (o 1).isLt; omega⟩
def chanOf (o : OutShape.Idx) : Fin 32 := ⟨(o 1).val / 9 % 32, Nat.mod_lt _ (by decide)⟩
def queryOf (o : OutShape.Idx) : Fin 9 := ⟨(o 1).val % 9, Nat.mod_lt _ (by decide)⟩
def pixelOf (o : OutShape.Idx) : Fin 4096 := ⟨(o 2).val, (o 2).isLt⟩

/-- The whole output array as a function of the two argument arrays, index by index. -/
def attend (L : LogitsShape.Idx → EReal) (X : ValuesShape.Idx → EReal) : OutShape.Idx → EReal := fun o =>
  mix (fun k => L (ix5 (batchOf o) (headOf o) (pixelOf o) (queryOf o) k))
    (fun j => X (ix5 (batchOf o) (headOf o) (pixelOf o) j (chanOf o)))

end Cert.WindowAttn

end
-- ==== Proof.RefAttend.lean ====
/-
  The reference computes the windowed attention of its two arguments.

  Its last stage, read one operation at a time: the scaled logits; their maximum along the key axis, which is a
  fold of max from minus infinity over the nine keys; the shifted exponentials; their sum along the key axis plus
  the constant; the quotient; the contraction with the values over the key axis; and the final transpose and
  reshape, which put head h, channel d and query i at row (h * 32 + d) * 9 + i.
-/
import proofs.«123111_j25056839204946_1_alg».proof.Proof.Gen.ReferenceIdeal.Read
import proofs.«123111_j25056839204946_1_alg».proof.Proof.WindowAttn
import Idealize.ShloMosaic.PureOps.Reduce

noncomputable section

open scoped BigOperators

namespace Cert.ReferenceIdeal.RefAttend

open Cert.ReferenceIdeal Cert.ReferenceIdeal.Gen Cert.ReferenceIdeal.Read Cert.WindowAttn
open Idealize.ShloMosaic Idealize.ShloMosaic.ValueIdx

variable (L : S4x8x4096x9x9.Idx → EReal) (X : S4x8x4096x9x32.Idx → EReal)

/-- The row of logits a query position sees. -/
abbrev row (b : Fin 4) (h : Fin 8) (w : Fin 4096) (i : Fin 9) : Fin 9 → EReal := fun k => L (ix5 b h w i k)

/-- The scaled logits at an index. -/
theorem scaled_at (b : Fin 4) (h : Fin 8) (w : Fin 4096) (i k : Fin 9) :
    val_main_v1 (F := Ideal) L (ix5 b h w i k) = scaled (row L b h w i) k := by
  rw [val_main_v1_apply, val_main_v0_apply, val_main_cst_apply]
  rfl

/-- The key-axis maximum at a query position: the fold of max from minus infinity over the nine scaled logits. -/
theorem max_at (b : Fin 4) (h : Fin 8) (w : Fin 4096) (i : Fin 9) :
    val_main_v2 (F := Ideal) L (ix4 b h w i) = rowMax (scaled (row L b h w i)) := by
  unfold val_main_v2
  have hr : S4x8x4096x9x9.Reduces [4] S4x8x4096x9 := by decide
  refine (Host.reduce_eq_fold_single (FloatOps.maximumf (F := Ideal) (φ := .f32)) (val_main_v1 (F := Ideal) L) (val_main_cst_0 (F := Ideal))
    reducesTo_S4x8x4096x9x9_S4x8x4096x9_d4 hr h_S_ (ix4 b h w i)).trans ?_
  have hf : (val_main_v1 (F := Ideal) L ∘ hr.lift (ix4 b h w i)) = fun k : Fin 9 => scaled (row L b h w i) k := by
    funext k
    have e : hr.lift (ix4 b h w i) k = ix5 b h w i (⟨k.val, k.isLt⟩ : Fin 9) := by
      funext c; apply Fin.ext
      match c with
      | ⟨0, _⟩ => rfl
      | ⟨1, _⟩ => rfl
      | ⟨2, _⟩ => rfl
      | ⟨3, _⟩ => rfl
      | ⟨4, _⟩ => rfl
    show val_main_v1 (F := Ideal) L (hr.lift (ix4 b h w i) k) = _
    rw [e]
    exact scaled_at L b h w i _
  exact congrArg (fun f => Finset.fold max (Ideal.ofBits .f32 0xFF800000#32 : EReal) f (Finset.univ : Finset (Fin 9))) hf

/-- The shifted exponentials at an index. -/
theorem exp_at (b : Fin 4) (h : Fin 8) (w : Fin 4096) (i k : Fin 9) :
    val_main_v6 (F := Ideal) L (ix5 b h w i k) = shiftedExp (row L b h w i) k := by
  rw [val_main_v6_apply, val_main_v5_apply, val_main_v4_apply, val_main_v3_apply]
  have e : idx_main_v3 (idx_main_v4 (ix5 b h w i k)) = ix4 b h w i := by
    funext c; apply Fin.ext
    match c with
    | ⟨0, _⟩ => rfl
    | ⟨1, _⟩ => rfl
    | ⟨2, _⟩ => rfl
    | ⟨3, _⟩ => rfl
  rw [e, max_at, scaled_at]
  rfl

/-- The denominator at an index: the key-axis sum of the exponentials (the host's sum starts from the zero word) plus the constant. -/
theorem denom_at (b : Fin 4) (h : Fin 8) (w : Fin 4096) (i j : Fin 9) :
    val_main_v11 (F := Ideal) L (ix5 b h w i j)
      = (∑ k : Fin 9, shiftedExp (row L b h w i) k) + (Ideal.ofBits .f32 0x2B8CBCCC#32 : EReal) := by
  rw [val_main_v11_apply, val_main_v10_apply, val_main_v8_apply]
  have e : idx_main_v8 (idx_main_v11 (ix5 b h w i j)) = ix4 b h w i := by
    funext c; apply Fin.ext
    match c with
    | ⟨0, _⟩ => rfl
    | ⟨1, _⟩ => rfl
    | ⟨2, _⟩ => rfl
    | ⟨3, _⟩ => rfl
  rw [e, val_main_v7_apply, val_main_v9_apply, val_main_cst_2_apply, val_main_cst_1_apply]
  have es : ∀ k : Fin 9, idx_main_v7 (ix4 b h w i) k = ix5 b h w i k := fun k => by
    funext c; apply Fin.ext
    match c with
    | ⟨0, _⟩ => rfl
    | ⟨1, _⟩ => rfl
    | ⟨2, _⟩ => rfl
    | ⟨3, _⟩ => rfl
    | ⟨4, _⟩ => rfl
  simp only [es, exp_at, Ideal.addf_def, Ideal.ofBits_def, Ideal.ofBits_zero_f32, zero_add]

/-- The softmax weights at an index. -/
theorem weight_at (b : Fin 4) (h : Fin 8) (w : Fin 4096) (i j : Fin 9) :
    val_main_v12 (F := Ideal) L (ix5 b h w i j) = weight (row L b h w i) j := by
  rw [val_main_v12_apply, exp_at, denom_at]
  rfl

/-- The contraction with the values over the key axis at an index. -/
theorem mix_at (b : Fin 4) (h : Fin 8) (w : Fin 4096) (i : Fin 9) (d : Fin 32) :
    val_main_v13 (F := Ideal) L X (ix5 b h w i d) = mix (row L b h w i) (fun j => X (ix5 b h w j d)) := by
  rw [val_main_v13_apply]
  unfold mix
  refine Finset.sum_congr rfl fun k _ => ?_
  have el : lidx_main_v13 (ix5 b h w i d) k = ix5 b h w i k := by
    funext c; apply Fin.ext
    match c with
    | ⟨0, _⟩ => rfl
    | ⟨1, _⟩ => rfl
    | ⟨2, _⟩ => rfl
    | ⟨3, _⟩ => rfl
    | ⟨4, _⟩ => rfl
  have er : ridx_main_v13 (ix5 b h w i d) k = ix5 b h w k d := by
    funext c; apply Fin.ext
    match c with
    | ⟨0, _⟩ => rfl
    | ⟨1, _⟩ => rfl
    | ⟨2, _⟩ => rfl
    | ⟨3, _⟩ => rfl
    | ⟨4, _⟩ => rfl
  rw [el, er, weight_at]

/-- The reference's result array is the windowed attention of its arguments: the final transpose and reshape put
    (head, channel, query) at row (h * 32 + d) * 9 + i, which is how the specification reads a row back. -/
theorem ref_attend : val_main_v15 (F := Ideal) L X = attend L X := by
  funext o
  rw [val_main_v15_apply, val_main_v14_apply]
  have e : idx_main_v14 (idx_main_v15 o) = ix5 (batchOf o) (headOf o) (pixelOf o) (queryOf o) (chanOf o) := by
    have h0 : (o 0).val < 4 := (o 0).isLt
    have h1 : (o 1).val < 2304 := (o 1).isLt
    have h2 : (o 2).val < 4096 := (o 2).isLt
    funext c; apply Fin.ext
    match c with
    | ⟨0, _⟩ => show (((o 0).val * 2304 + (o 1).val) * 4096 + (o 2).val) / 9437184 = (o 0).val; omega
    | ⟨1, _⟩ => show (((o 0).val * 2304 + (o 1).val) * 4096 + (o 2).val) / 1179648 % 8 = (o 1).val / 288; omega
    | ⟨2, _⟩ => show (((o 0).val * 2304 + (o 1).val) * 4096 + (o 2).val) % 4096 = (o 2).val; omega
    | ⟨3, _⟩ => show (((o 0).val * 2304 + (o 1).val) * 4096 + (o 2).val) / 4096 % 9 = (o 1).val % 9; omega
    | ⟨4, _⟩ => show (((o 0).val * 2304 + (o 1).val) * 4096 + (o 2).val) / 36864 % 32 = (o 1).val / 9 % 32; omega
  rw [e, mix_at]
  rfl

end Cert.ReferenceIdeal.RefAttend

end
-- ==== Proof.BodyAttend.lean ====
/-
  What the kernel body stores, read at one entry of its output block.

  The body's stored value is a composition of stages of the two loaded blocks: the logits block re-laid as
  [512, 9, 9] and scaled; its key-axis maximum (a fold of max from minus infinity), kept as a column and spread
  back; the shifted exponentials; their key-axis sum plus the constant, kept as a column and spread back; the
  quotient; the values block re-laid as [512, 9, 32]; the product contracted over the key axis pixel by pixel (the
  changes of float format on its operands are the identity on extended reals, and it accumulates into zero); and a
  transpose and two re-layouts that put channel d and query i at row d * 9 + i. At row d * 9 + i and pixel p the
  stored value is therefore the mix, by the softmax weights of the logits row (p, i), of the values (p, ., d).
-/
import proofs.«123111_j25056839204946_1_alg».proof.Proof.Gen.KernelIdeal.Skeleton
import proofs.«123111_j25056839204946_1_alg».proof.Proof.WindowAttn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.WindowAttn
open Idealize.ShloMosaic Idealize.ShloMosaic.ValueIdx

/-- The dimension numbers of the body's product: pixel is a batch axis, the key axis is contracted. -/
abbrev D := dot_S512x9x9_S512x9x32_S512x9x32_2_1_1_2_0_0

variable (x0 : Vec Ideal S1x1x512x81 .f32) (x1 : Vec Ideal S1x1x512x288 .f32)

/-! ## The stages -/

/-- The logits block as pixel, query, key. -/
def logits3 : FVec Ideal S512x9x9 .f32 :=
  shapeCast S512x9x9 (shapeCast S512x81 x0 Gen.shapeCasts_S1x1x512x81_S512x81) Gen.shapeCasts_S512x81_S512x9x9
/-- … scaled. -/
def scaledBlk : FVec Ideal S512x9x9 .f32 :=
  mulf (logits3 x0) (broadcast S512x9x9 (Scalar.ofBits .f32 0x3E3504F3#32))
/-- Its maximum along the key axis. -/
def maxBlk : FVec Ideal S512x9 .f32 :=
  multiReduction .maximumf [2] S512x9 (scaledBlk x0) 0xFF800000#32 Gen.reduces_S512x9x9_S512x9 (.inl rfl) rfl
/-- The shifted exponentials. -/
def expBlk : FVec Ideal S512x9x9 .f32 :=
  exp (subf (scaledBlk x0) (broadcastTo S512x9x9 (shapeCast S512x9x1 (maxBlk x0) Gen.shapeCasts_S512x9_S512x9x1)
    Gen.broadcasts_S512x9x1_S512x9x9))
/-- Their sum along the key axis. -/
def sumBlk : FVec Ideal S512x9 .f32 :=
  multiReduction .add [2] S512x9 (expBlk x0) 0x00000000#32 Gen.reduces_S512x9x9_S512x9 (.inl rfl) rfl
/-- The softmax weights. -/
def probBlk : FVec Ideal S512x9x9 .f32 :=
  divf (expBlk x0) (broadcastTo S512x9x9 (addf (shapeCast S512x9x1 (sumBlk x0) Gen.shapeCasts_S512x9_S512x9x1)
    (broadcast S512x9x1 (Scalar.ofBits .f32 0x2B8CBCCC#32))) Gen.broadcasts_S512x9x1_S512x9x9)
/-- The values block as pixel, key, channel. -/
def valBlk : FVec Ideal S512x9x32 .f32 :=
  shapeCast S512x9x32 (shapeCast S512x288 x1 Gen.shapeCasts_S1x1x512x288_S512x288) Gen.shapeCasts_S512x288_S512x9x32
/-- The weights applied to the values, pixel by pixel. -/
def outBlk : FVec Ideal S512x9x32 .f32 :=
  matmul D none (truncf .bf16 (probBlk x0) Gen.bitsLt_bf16_f32) (truncf .bf16 (valBlk x1) Gen.bitsLt_bf16_f32)
    (constant S512x9x32 .f32 0x00000000#32)

/-- The stored value is the last stage transposed to channel, query, pixel and re-laid as rows d * 9 + i. -/
theorem pay_eq : Gen.k0_pay1 (F := Ideal) x0 x1
    = shapeCast S1x288x512 (shapeCast S288x512 (transpose S32x9x512 [2, 1, 0] (outBlk x0 x1)
        Gen.transposes_S512x9x32_p2_1_0_S32x9x512) Gen.shapeCasts_S32x9x512_S288x512) Gen.shapeCasts_S288x512_S1x288x512 := rfl

/-! ## Each stage at an index -/

/-- The row of nine logits the block holds for pixel `p` and query `i`. -/
abbrev blkRow (p : Fin 512) (i : Fin 9) : Fin 9 → EReal :=
  fun k => x0 (ix4 (0 : Fin 1) (0 : Fin 1) p (⟨i.val * 9 + k.val, by omega⟩ : Fin 81))
/-- The nine values the block holds for pixel `p` and channel `d`. -/
abbrev blkCol (p : Fin 512) (d : Fin 32) : Fin 9 → EReal :=
  fun j => x1 (ix4 (0 : Fin 1) (0 : Fin 1) p (⟨j.val * 32 + d.val, by omega⟩ : Fin 288))

theorem logits3_at (p : Fin 512) (i k : Fin 9) : logits3 x0 (ix3 p i k) = blkRow x0 p i k := by
  unfold logits3
  refine (shapeCast_apply _ Gen.shapeCasts_S512x81_S512x9x9 (ix3 p i k)
    (ix2 p (⟨i.val * 9 + k.val, by omega⟩ : Fin 81)) (by
      rewrite [Shape.rowMajor_val_two, Shape.rowMajor_val_three]
      show p.val * 81 + (i.val * 9 + k.val) = (p.val * 9 + i.val) * 9 + k.val
      omega)).trans ?_
  exact shapeCast_apply _ Gen.shapeCasts_S1x1x512x81_S512x81 (ix2 p (⟨i.val * 9 + k.val, by omega⟩ : Fin 81))
    (ix4 (0 : Fin 1) (0 : Fin 1) p (⟨i.val * 9 + k.val, by omega⟩ : Fin 81)) (by
      rewrite [Shape.rowMajor_val_four, Shape.rowMajor_val_two]
      show ((0 * 1 + 0) * 512 + p.val) * 81 + (i.val * 9 + k.val) = p.val * 81 + (i.val * 9 + k.val)
      omega)

theorem valBlk_at (p : Fin 512) (j : Fin 9) (d : Fin 32) : valBlk x1 (ix3 p j d) = blkCol x1 p d j := by
  unfold valBlk
  refine (shapeCast_apply _ Gen.shapeCasts_S512x288_S512x9x32 (ix3 p j d)
    (ix2 p (⟨j.val * 32 + d.val, by omega⟩ : Fin 288)) (by
      rewrite [Shape.rowMajor_val_two, Shape.rowMajor_val_three]
      show p.val * 288 + (j.val * 32 + d.val) = (p.val * 9 + j.val) * 32 + d.val
      omega)).trans ?_
  exact shapeCast_apply _ Gen.shapeCasts_S1x1x512x288_S512x288 (ix2 p (⟨j.val * 32 + d.val, by omega⟩ : Fin 288))
    (ix4 (0 : Fin 1) (0 : Fin 1) p (⟨j.val * 32 + d.val, by omega⟩ : Fin 288)) (by
      rewrite [Shape.rowMajor_val_four, Shape.rowMajor_val_two]
      show ((0 * 1 + 0) * 512 + p.val) * 288 + (j.val * 32 + d.val) = p.val * 288 + (j.val * 32 + d.val)
      omega)

theorem scaled_at (p : Fin 512) (i k : Fin 9) : scaledBlk x0 (ix3 p i k) = scaled (blkRow x0 p i) k := by
  show logits3 x0 (ix3 p i k) * (Ideal.ofBits .f32 0x3E3504F3#32 : EReal) = _
  rw [logits3_at]
  rfl

/-- The key axis put back: the reduced index (p, i) with key `k` inserted is (p, i, k). -/
theorem lift_key (p : Fin 512) (i : Fin 9) (k : Fin (S512x9x9.size 2)) :
    Gen.reduces_S512x9x9_S512x9.lift (ix2 p i) k = ix3 p i (⟨k.val, k.isLt⟩ : Fin 9) := by
  funext c; apply Fin.ext
  match c with
  | ⟨0, _⟩ => rfl
  | ⟨1, _⟩ => rfl
  | ⟨2, _⟩ => rfl

theorem maxBlk_at (p : Fin 512) (i : Fin 9) : maxBlk x0 (ix2 p i) = rowMax (scaled (blkRow x0 p i)) := by
  unfold maxBlk
  refine (Ideal.multiReduction_maximumf_single (scaledBlk x0) 0xFF800000#32 Gen.reduces_S512x9x9_S512x9 (.inl rfl) rfl
    (ix2 p i)).trans ?_
  have hf : (scaledBlk x0 ∘ Gen.reduces_S512x9x9_S512x9.lift (ix2 p i)) = fun k : Fin 9 => scaled (blkRow x0 p i) k := by
    funext k
    show scaledBlk x0 (Gen.reduces_S512x9x9_S512x9.lift (ix2 p i) k) = _
    rw [lift_key]
    exact scaled_at x0 p i _
  exact congrArg (fun f => Finset.fold max (Ideal.ofBits .f32 0xFF800000#32 : EReal) f (Finset.univ : Finset (Fin 9))) hf

/-- A column [512, 9, 1] spread along the key axis reads its entry (p, i, 0). -/
theorem spread_at (z : FVec Ideal S512x9x1 .f32) (p : Fin 512) (i k : Fin 9) :
    broadcastTo S512x9x9 z Gen.broadcasts_S512x9x1_S512x9x9 (ix3 p i k) = z (ix3 p i (0 : Fin 1)) :=
  broadcastTo_apply z Gen.broadcasts_S512x9x1_S512x9x9 (ix3 p i k) (ix3 p i (0 : Fin 1)) (fun a => by
    match a with
    | ⟨0, _⟩ => show p.val = if (512 : Nat) = 1 then 0 else p.val; rw [if_neg (by decide)]
    | ⟨1, _⟩ => show i.val = if (9 : Nat) = 1 then 0 else i.val; rw [if_neg (by decide)]
    | ⟨2, _⟩ => show 0 = if (1 : Nat) = 1 then 0 else k.val; rw [if_pos rfl])

/-- A [512, 9] array kept as a column [512, 9, 1] reads, at (p, i, 0), its entry (p, i). -/
theorem column_at (y : FVec Ideal S512x9 .f32) (p : Fin 512) (i : Fin 9) :
    shapeCast S512x9x1 y Gen.shapeCasts_S512x9_S512x9x1 (ix3 p i (0 : Fin 1)) = y (ix2 p i) :=
  shapeCast_apply y Gen.shapeCasts_S512x9_S512x9x1 (ix3 p i (0 : Fin 1)) (ix2 p i) (by
    rewrite [Shape.rowMajor_val_two, Shape.rowMajor_val_three]
    show p.val * 9 + i.val = (p.val * 9 + i.val) * 1 + 0
    omega)

theorem expBlk_at (p : Fin 512) (i k : Fin 9) : expBlk x0 (ix3 p i k) = shiftedExp (blkRow x0 p i) k := by
  show Ideal.exp (scaledBlk x0 (ix3 p i k) - broadcastTo S512x9x9 (shapeCast S512x9x1 (maxBlk x0)
    Gen.shapeCasts_S512x9_S512x9x1) Gen.broadcasts_S512x9x1_S512x9x9 (ix3 p i k)) = _
  rw [spread_at, column_at, scaled_at, maxBlk_at]
  rfl

theorem sumBlk_at (p : Fin 512) (i : Fin 9) : sumBlk x0 (ix2 p i) = ∑ k : Fin 9, shiftedExp (blkRow x0 p i) k := by
  unfold sumBlk
  refine (Ideal.multiReduction_add_single (expBlk x0) 0x00000000#32 Gen.reduces_S512x9x9_S512x9 (.inl rfl) rfl
    (ix2 p i)).trans ?_
  refine Finset.sum_congr rfl fun k _ => ?_
  rw [lift_key]
  exact expBlk_at x0 p i _

theorem probBlk_at (p : Fin 512) (i j : Fin 9) : probBlk x0 (ix3 p i j) = weight (blkRow x0 p i) j := by
  show Ideal.div (expBlk x0 (ix3 p i j)) (broadcastTo S512x9x9 (addf (shapeCast S512x9x1 (sumBlk x0)
    Gen.shapeCasts_S512x9_S512x9x1) (broadcast S512x9x1 (Scalar.ofBits .f32 0x2B8CBCCC#32)))
    Gen.broadcasts_S512x9x1_S512x9x9 (ix3 p i j)) = _
  rw [spread_at, addf_apply, column_at, sumBlk_at, expBlk_at]
  rfl

/-! ## The product at an index -/

theorem lhs_0 (o : S512x9x32.Idx) (q : D.contr.Idx) : (D.lhsIdx o q 0).val = (o 0).val := by
  unfold DotDims.lhsIdx
  rw [dif_pos (show (0 : Fin S512x9x9.rank) ∈ D.lhsBatch by decide)]
  rfl
theorem lhs_1 (o : S512x9x32.Idx) (q : D.contr.Idx) : (D.lhsIdx o q 1).val = (o 1).val := by
  unfold DotDims.lhsIdx
  rw [dif_neg (show ¬(1 : Fin S512x9x9.rank) ∈ D.lhsBatch by decide),
    dif_pos (show (1 : Fin S512x9x9.rank) ∈ D.lhsNonContracting by decide)]
  rfl
theorem lhs_2 (o : S512x9x32.Idx) (q : D.contr.Idx) : (D.lhsIdx o q 2).val = (q ⟨0, by decide⟩).val :=
  D.lhsIdx_val_of_single rfl o q
theorem rhs_0 (o : S512x9x32.Idx) (q : D.contr.Idx) : (D.rhsIdx o q 0).val = (o 0).val := by
  unfold DotDims.rhsIdx
  rw [dif_pos (show (0 : Fin S512x9x32.rank) ∈ D.rhsBatch by decide)]
  rfl
theorem rhs_1 (o : S512x9x32.Idx) (q : D.contr.Idx) : (D.rhsIdx o q 1).val = (q ⟨0, by decide⟩).val :=
  D.rhsIdx_val_of_single rfl o q
theorem rhs_2 (o : S512x9x32.Idx) (q : D.contr.Idx) : (D.rhsIdx o q 2).val = (o 2).val := by
  unfold DotDims.rhsIdx
  rw [dif_neg (show ¬(2 : Fin S512x9x32.rank) ∈ D.rhsBatch by decide),
    dif_pos (show (2 : Fin S512x9x32.rank) ∈ D.rhsNonContracting by decide)]
  rfl

theorem outBlk_at (p : Fin 512) (i : Fin 9) (d : Fin 32) :
    outBlk x0 x1 (ix3 p i d) = mix (blkRow x0 p i) (blkCol x1 p d) := by
  unfold outBlk
  refine (Ideal.matmul_constant_zero_apply D none _ _ (ix3 p i d)).trans ?_
  rw [← Equiv.sum_comp (ValueIdx.contrEquiv1 D 9 rfl rfl).symm]
  unfold mix
  refine Finset.sum_congr rfl fun k _ => ?_
  have hk := ValueIdx.contrEquiv1_symm_val D 9 rfl rfl k
  have el : D.lhsIdx (ix3 p i d) ((ValueIdx.contrEquiv1 D 9 rfl rfl).symm k) = ix3 p i k := funext fun a => Fin.ext (by
    match a with
    | ⟨0, _⟩ => exact lhs_0 _ _
    | ⟨1, _⟩ => exact lhs_1 _ _
    | ⟨2, _⟩ => exact (lhs_2 _ _).trans hk)
  have er : D.rhsIdx (ix3 p i d) ((ValueIdx.contrEquiv1 D 9 rfl rfl).symm k) = ix3 p k d := funext fun a => Fin.ext (by
    match a with
    | ⟨0, _⟩ => exact rhs_0 _ _
    | ⟨1, _⟩ => exact (rhs_1 _ _).trans hk
    | ⟨2, _⟩ => exact rhs_2 _ _)
  rw [el, er, truncf_apply, truncf_apply, probBlk_at, valBlk_at]

/-! ## The stored value at an index -/

theorem pay_at (d : Fin 32) (i : Fin 9) (p : Fin 512) :
    Gen.k0_pay1 (F := Ideal) x0 x1 (ix3 (0 : Fin 1) (⟨d.val * 9 + i.val, by omega⟩ : Fin 288) p)
      = mix (blkRow x0 p i) (blkCol x1 p d) := by
  rw [pay_eq]
  refine (shapeCast_ab_1ab_apply _ Gen.shapeCasts_S288x512_S1x288x512 (0 : Fin 1)
    (⟨d.val * 9 + i.val, by omega⟩ : Fin 288) p).trans ?_
  refine (shapeCast_apply _ Gen.shapeCasts_S32x9x512_S288x512 (ix2 (⟨d.val * 9 + i.val, by omega⟩ : Fin 288) p)
    (ix3 d i p) (by
      rewrite [Shape.rowMajor_val_three, Shape.rowMajor_val_two]
      show (d.val * 9 + i.val) * 512 + p.val = (d.val * 9 + i.val) * 512 + p.val
      rfl)).trans ?_
  refine (transpose_apply [2, 1, 0] _ Gen.transposes_S512x9x32_p2_1_0_S32x9x512 (ix3 d i p) (ix3 p i d)
    (fun c => match c with | ⟨0, _⟩ => rfl | ⟨1, _⟩ => rfl | ⟨2, _⟩ => rfl)).trans ?_
  exact outBlk_at x0 x1 p i d

/-- The same at any index of the output block: row r stands for channel r / 9 and query r % 9. -/
theorem pay_at_idx (y : S1x288x512.Idx) :
    Gen.k0_pay1 (F := Ideal) x0 x1 y
      = mix (blkRow x0 (⟨(y 2).val, (y 2).isLt⟩ : Fin 512) (⟨(y 1).val % 9, Nat.mod_lt _ (by decide)⟩ : Fin 9))
          (blkCol x1 (⟨(y 2).val, (y 2).isLt⟩ : Fin 512)
            (⟨(y 1).val / 9, by have h1 : (y 1).val < 288 := (y 1).isLt; omega⟩ : Fin 32)) := by
  have h1 : (y 1).val < 288 := (y 1).isLt
  have e : y = ix3 (0 : Fin 1) (⟨(y 1).val / 9 * 9 + (y 1).val % 9, by omega⟩ : Fin 288) (⟨(y 2).val, (y 2).isLt⟩ : Fin 512) := by
    funext a; apply Fin.ext
    match a with
    | ⟨0, _⟩ => show (y 0).val = 0; have h0 : (y 0).val < 1 := (y 0).isLt; omega
    | ⟨1, _⟩ => show (y 1).val = (y 1).val / 9 * 9 + (y 1).val % 9; omega
    | ⟨2, _⟩ => rfl
  refine (congrArg (Gen.k0_pay1 (F := Ideal) x0 x1) e).trans ?_
  exact pay_at x0 x1 (⟨(y 1).val / 9, by omega⟩ : Fin 32) (⟨(y 1).val % 9, Nat.mod_lt _ (by decide)⟩ : Fin 9)
    (⟨(y 2).val, (y 2).isLt⟩ : Fin 512)

end Cert.KernelIdeal.Body

end
-- ==== Proof.BlocksAttend.lean ====
/-
  From the blocks to the whole output array.

  The program reshapes the logits to [4, 8, 4096, 81] and the values to [4, 8, 4096, 288] before the grid runs. Grid
  point (b, h, g) reads the logits and values of batch b, head h and the 512 pixels of tile g, and writes the output
  rows h * 288 ... h * 288 + 287 of batch b at those pixels. Row d * 9 + i, pixel p of what it writes is the mix for
  query i and channel d at pixel g * 512 + p, that is the windowed attention of the two arguments at output row
  (h * 32 + d) * 9 + i; and every output index lies in the block of exactly the point that its row and pixel name.
-/
import proofs.«123111_j25056839204946_1_alg».proof.Proof.Gen.KernelIdeal.Value
import proofs.«123111_j25056839204946_1_alg».proof.Proof.BodyAttend
import Idealize.ShloMosaic.Lib.StableHlo.Run

set_option maxRecDepth 16384

noncomputable section

open scoped BigOperators

namespace Cert.KernelIdeal.Blocks

open Cert.KernelIdeal Cert.KernelIdeal.Gen Cert.KernelIdeal.Value Cert.KernelIdeal.Body Cert.WindowAttn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The two argument arrays on core `c`. -/
abbrev argL (c : Dev nD) : S4x8x4096x9x9.Idx → EReal := m ((c : Thread nD τ).loc main_arg0)
abbrev argX (c : Dev nD) : S4x8x4096x9x32.Idx → EReal := m ((c : Thread nD τ).loc main_arg1)

/-! ## The reshapes before the grid -/

/-- The grid finds the logits with query and key merged into one axis of 81. -/
theorem V_v0 (c : Dev nD) : (V m c main_v0 : S4x8x4096x81.Idx → EReal)
    = shapeCast S4x8x4096x81 (argL m c) Gen.shapeCasts_S4x8x4096x9x9_S4x8x4096x81 := by
  dsimp only [V, hostOps0]; after_results <;> rfl

/-- The grid finds the values with key and channel merged into one axis of 288. -/
theorem V_v1 (c : Dev nD) : (V m c main_v1 : S4x8x4096x288.Idx → EReal)
    = shapeCast S4x8x4096x288 (argX m c) Gen.shapeCasts_S4x8x4096x9x32_S4x8x4096x288 := by
  dsimp only [V, hostOps0]; after_results <;> rfl

/-! ## Which blocks a grid point touches -/

/-- The three index maps over the grid: both inputs move with the output on batch, head and pixel tile, and
    sit at block 0 of their merged axis. -/
theorem idx_facts : ∀ t : Fin cfg0.N,
    win0_0.index t (0 : Fin 4) = win0_2.index t (0 : Fin 3) ∧ win0_0.index t (1 : Fin 4) = win0_2.index t (1 : Fin 3)
    ∧ win0_0.index t (2 : Fin 4) = win0_2.index t (2 : Fin 3) ∧ win0_0.index t (3 : Fin 4) = 0
    ∧ win0_1.index t (0 : Fin 4) = win0_2.index t (0 : Fin 3) ∧ win0_1.index t (1 : Fin 4) = win0_2.index t (1 : Fin 3)
    ∧ win0_1.index t (2 : Fin 4) = win0_2.index t (2 : Fin 3) ∧ win0_1.index t (3 : Fin 4) = 0
    ∧ win0_2.index t (0 : Fin 3) < 4 ∧ win0_2.index t (1 : Fin 3) < 8 ∧ win0_2.index t (2 : Fin 3) < 8 :=
  (by decide +kernel : ∀ t : Fin grid0.N, _)

/-- Every (batch, head, pixel tile) is some grid point's. -/
theorem idx_onto : ∀ (q0 : Fin 4) (q1 : Fin 8) (q2 : Fin 8), ∃ t : Fin cfg0.N, win0_2.index t = ![q0.val, q1.val, q2.val] :=
  (by decide +kernel : ∀ (q0 : Fin 4) (q1 : Fin 8) (q2 : Fin 8), ∃ t : Fin grid0.N, win0_2.index t = ![q0.val, q1.val, q2.val])

/-- The logits block at a point with batch b, head h, tile g: entry (p, q) is the logit of pixel g * 512 + p,
    query q / 9, key q % 9. -/
theorem logits_blk (c : Dev nD) (t : Fin cfg0.N) (b : Fin 4) (h g : Fin 8)
    (e0 : win0_0.index t (0 : Fin 4) = b.val) (e1 : win0_0.index t (1 : Fin 4) = h.val)
    (e2 : win0_0.index t (2 : Fin 4) = g.val) (e3 : win0_0.index t (3 : Fin 4) = 0) (p : Fin 512) (q : Fin 81) :
    iblk m c 0 t (ix4 (0 : Fin 1) (0 : Fin 1) p q)
      = argL m c (ix5 b h (⟨g.val * 512 + p.val, by omega⟩ : Fin 4096) (⟨q.val / 9, by omega⟩ : Fin 9)
          (⟨q.val % 9, Nat.mod_lt _ (by decide)⟩ : Fin 9)) := by
  show V m c main_v0 (((cfg0.win 0).blk t).view.emb (ix4 (0 : Fin 1) (0 : Fin 1) p q)) = _
  rw [V_v0]
  exact shapeCast_apply _ _ _ _ (by
    rewrite [Shape.rowMajor_val_five, Shape.rowMajor_val_four]
    show (((b.val * 8 + h.val) * 4096 + (g.val * 512 + p.val)) * 9 + q.val / 9) * 9 + q.val % 9
      = (((win0_0.index t (0 : Fin 4) * 1 + 1 * 0) * 8 + (win0_0.index t (1 : Fin 4) * 1 + 1 * 0)) * 4096
          + (win0_0.index t (2 : Fin 4) * 512 + 1 * p.val)) * 81 + (win0_0.index t (3 : Fin 4) * 81 + 1 * q.val)
    rw [e0, e1, e2, e3]; omega)

/-- The values block at such a point: entry (p, q) is the value of pixel g * 512 + p, key q / 32, channel q % 32. -/
theorem values_blk (c : Dev nD) (t : Fin cfg0.N) (b : Fin 4) (h g : Fin 8)
    (e0 : win0_1.index t (0 : Fin 4) = b.val) (e1 : win0_1.index t (1 : Fin 4) = h.val)
    (e2 : win0_1.index t (2 : Fin 4) = g.val) (e3 : win0_1.index t (3 : Fin 4) = 0) (p : Fin 512) (q : Fin 288) :
    iblk m c 1 t (ix4 (0 : Fin 1) (0 : Fin 1) p q)
      = argX m c (ix5 b h (⟨g.val * 512 + p.val, by omega⟩ : Fin 4096) (⟨q.val / 32, by omega⟩ : Fin 9)
          (⟨q.val % 32, Nat.mod_lt _ (by decide)⟩ : Fin 32)) := by
  show V m c main_v1 (((cfg0.win 1).blk t).view.emb (ix4 (0 : Fin 1) (0 : Fin 1) p q)) = _
  rw [V_v1]
  exact shapeCast_apply _ _ _ _ (by
    rewrite [Shape.rowMajor_val_five, Shape.rowMajor_val_four]
    show (((b.val * 8 + h.val) * 4096 + (g.val * 512 + p.val)) * 9 + q.val / 32) * 32 + q.val % 32
      = (((win0_1.index t (0 : Fin 4) * 1 + 1 * 0) * 8 + (win0_1.index t (1 : Fin 4) * 1 + 1 * 0)) * 4096
          + (win0_1.index t (2 : Fin 4) * 512 + 1 * p.val)) * 288 + (win0_1.index t (3 : Fin 4) * 288 + 1 * q.val)
    rw [e0, e1, e2, e3]; omega)

/-! ## What a point writes back -/

/-- What point `t` writes back is its block of the windowed attention of the two arguments. -/
theorem flushed_eq (c : Dev nD) (t : Fin cfg0.N) :
    (dats m 0 c).flushed 2 t = ((cfg0.win 2).blk t).view.read (Elt Ideal) (attend (argL m c) (argX m c)) := by
  rw [Value.flushed2]
  unfold out0_2
  rw [View.canon_unit_zero hz3]
  simp only [View.ld_unit_zero (S := S1x1x512x81) hz4, View.ld_unit_zero (S := S1x1x512x288) hz4]
  obtain ⟨a0, a1, a2, a3, b0, b1, b2, b3, l0, l1, l2⟩ := idx_facts t
  funext y
  show k0_pay1 (F := Ideal) (iblk m c 0 t) (iblk m c 1 t) y
    = attend (argL m c) (argX m c) (((cfg0.win 2).blk t).view.emb y)
  refine (pay_at_idx (iblk m c 0 t) (iblk m c 1 t) y).trans ?_
  have hy0 : (y 0).val < 1 := (y 0).isLt
  have hy1 : (y 1).val < 288 := (y 1).isLt
  have hy2 : (y 2).val < 512 := (y 2).isLt
  refine congrArg₂ mix (funext fun k => ?_) (funext fun j => ?_)
  · refine (logits_blk m c t ⟨win0_2.index t (0 : Fin 3), l0⟩ ⟨win0_2.index t (1 : Fin 3), l1⟩
      ⟨win0_2.index t (2 : Fin 3), l2⟩ a0 a1 a2 a3 _ _).trans ?_
    refine congrArg (argL m c) (funext fun a => Fin.ext ?_)
    match a with
    | ⟨0, _⟩ => show win0_2.index t (0 : Fin 3) = win0_2.index t (0 : Fin 3) * 1 + 1 * (y 0).val; omega
    | ⟨1, _⟩ => show win0_2.index t (1 : Fin 3) = (win0_2.index t (1 : Fin 3) * 288 + 1 * (y 1).val) / 288; omega
    | ⟨2, _⟩ => show win0_2.index t (2 : Fin 3) * 512 + (y 2).val = win0_2.index t (2 : Fin 3) * 512 + 1 * (y 2).val; omega
    | ⟨3, _⟩ => show ((y 1).val % 9 * 9 + k.val) / 9 = (win0_2.index t (1 : Fin 3) * 288 + 1 * (y 1).val) % 9
                have hk : k.val < 9 := k.isLt
                omega
    | ⟨4, _⟩ => show ((y 1).val % 9 * 9 + k.val) % 9 = k.val
                have hk : k.val < 9 := k.isLt
                omega
  · refine (values_blk m c t ⟨win0_2.index t (0 : Fin 3), l0⟩ ⟨win0_2.index t (1 : Fin 3), l1⟩
      ⟨win0_2.index t (2 : Fin 3), l2⟩ b0 b1 b2 b3 _ _).trans ?_
    refine congrArg (argX m c) (funext fun a => Fin.ext ?_)
    match a with
    | ⟨0, _⟩ => show win0_2.index t (0 : Fin 3) = win0_2.index t (0 : Fin 3) * 1 + 1 * (y 0).val; omega
    | ⟨1, _⟩ => show win0_2.index t (1 : Fin 3) = (win0_2.index t (1 : Fin 3) * 288 + 1 * (y 1).val) / 288; omega
    | ⟨2, _⟩ => show win0_2.index t (2 : Fin 3) * 512 + (y 2).val = win0_2.index t (2 : Fin 3) * 512 + 1 * (y 2).val; omega
    | ⟨3, _⟩ => show (j.val * 32 + (y 1).val / 9) / 32 = j.val
                have hj : j.val < 9 := j.isLt
                omega
    | ⟨4, _⟩ => show (j.val * 32 + (y 1).val / 9) % 32 = (win0_2.index t (1 : Fin 3) * 288 + 1 * (y 1).val) / 9 % 32
                have hj : j.val < 9 := j.isLt
                omega

/-! ## The cover and the run -/

/-- An index of the output array is in point `t`'s block iff each coordinate is in the block's range on its axis. -/
theorem mem_blk (t : Fin cfg0.N) (i : S4x2304x4096.Idx) :
    i ∈ ((cfg0.win 2).blk t).view.set ↔ ∀ a : Fin 3, win0_2.index t a * S1x288x512.size a ≤ (i a).val
      ∧ (i a).val < win0_2.index t a * S1x288x512.size a + S1x288x512.size a := by
  show i ∈ ((View.whole main_v2).slice (win0_2.rect t)).set ↔ _
  rw [View.set_slice_whole, Rect.mem_set_unit]
  exact Iff.rfl

/-- Every output index is in the block of the point its batch, its row's head and its pixel's tile name. -/
theorem cover (i : S4x2304x4096.Idx) :
    ∃ t : Fin cfg0.N, (cfg0.win 2).flush t = true ∧ i ∈ ((cfg0.win 2).blk t).view.set := by
  have hi0 : (i 0).val < 4 := (i 0).isLt
  have hi1 : (i 1).val < 2304 := (i 1).isLt
  have hi2 : (i 2).val < 4096 := (i 2).isLt
  obtain ⟨t, ht⟩ := idx_onto ⟨(i 0).val, hi0⟩ ⟨(i 1).val / 288, by omega⟩ ⟨(i 2).val / 512, by omega⟩
  have q0 : win0_2.index t (0 : Fin 3) = (i 0).val := congrFun ht 0
  have q1 : win0_2.index t (1 : Fin 3) = (i 1).val / 288 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 288 ≤ (i 1).val ∧ (i 1).val < win0_2.index t (1 : Fin 3) * 288 + 288; omega
  | ⟨2, _⟩ => show win0_2.index t (2 : Fin 3) * 512 ≤ (i 2).val ∧ (i 2).val < win0_2.index t (2 : Fin 3) * 512 + 512; omega

/-- The output array after the run is the windowed attention of the two arguments. -/
theorem final (c : Dev nD) : (dats m 0 c).arrAt 2 cfg0.N = attend (argL m c) (argX m c) :=
  (dats m 0 c).arrAt_eq_of_cover 2 (attend (argL m c) (argX m c)) (fun t _ => flushed_eq m c t) cover

/-- The kernel's run: it terminates with the output array at the windowed attention of the arguments, the arguments unchanged. -/
theorem run : θ_run defs (onTc (τ := τ) (main (F := Ideal))) ⟨m, fun _ => 0, ρ⟩ fun r => ∀ c : Dev nD,
      r.2.mem ((c : Thread nD τ).loc main_v2) = attend (argL m c) (argX m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/-
  A fused windowed-attention kernel against its array-level reference, over the extended reals.

  Both programs take logits [4, 8, 4096, 9, 9] and values [4, 8, 4096, 9, 32]. For every batch, head, pixel and query
  they scale the nine logits of the row, subtract the row's maximum, exponentiate, divide by the sum of the nine
  exponentials plus one fixed constant, and mix the nine value rows with the resulting weights; the result is laid out
  as [4, 2304, 4096] with head h, channel d and query i at row (h * 32 + d) * 9 + i. The kernel does this tile by tile
  on reshaped operands, rounding the operands of its product to a narrower float format, which on extended reals is
  the identity; the reference does it on the whole arrays. Operation by operation the two compute one and the same
  function of the arguments (`Cert.WindowAttn.attend`): the scale, the minus infinity the maxima start from and the
  added constant are the same binary words on both sides, a maximum or a sum over the nine keys does not depend on the
  order it is taken in, and no law that could fail at an infinity is used, so the finiteness of the inputs is not needed.
  The three frames are the generated ones (the reference's is its generated run with the result dropped), and the
  idealized kernel is the kernel's own text read over the extended reals, with nothing rewritten.
-/
import proofs.«123111_j25056839204946_1_alg».proof.Defs
import proofs.«123111_j25056839204946_1_alg».proof.Proof.Gen.Kernel
import proofs.«123111_j25056839204946_1_alg».proof.Proof.Gen.Kernel.Frame
import proofs.«123111_j25056839204946_1_alg».proof.Proof.Gen.KernelIdeal
import proofs.«123111_j25056839204946_1_alg».proof.Proof.Gen.KernelIdeal.Frame
import proofs.«123111_j25056839204946_1_alg».proof.Proof.Gen.ReferenceIdeal
import proofs.«123111_j25056839204946_1_alg».proof.Proof.Gen.Pre_finite_inputs
import proofs.«123111_j25056839204946_1_alg».proof.Proof.Gen.KernelIdeal.Value
import proofs.«123111_j25056839204946_1_alg».proof.Proof.Gen.ReferenceIdeal.Run
import proofs.«123111_j25056839204946_1_alg».proof.Proof.Gen.ReferenceIdeal.Read
import proofs.«123111_j25056839204946_1_alg».proof.Proof.WindowAttn
import proofs.«123111_j25056839204946_1_alg».proof.Proof.RefAttend
import proofs.«123111_j25056839204946_1_alg».proof.Proof.BlocksAttend
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- From memories that agree on the two arguments both programs end with the same result array: the windowed
    attention of the arguments. -/
theorem algebraic : Cert.algebraic_KernelIdeal_ReferenceIdeal := by
  intro m ρ m' ρ' _ hagree
  refine ⟨fun c => Cert.WindowAttn.attend (Cert.KernelIdeal.Blocks.argL m c) (Cert.KernelIdeal.Blocks.argX m c),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _).trans ?_
  rw [Cert.ReferenceIdeal.RefAttend.ref_attend, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
